-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v11)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v11) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v13) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8388608 : Shape := ⟨1, ![8388608]⟩
abbrev S_ : Shape := ⟨0, ![]⟩

class Facts : Prop where
  bcast_S_S8388608 : S_.BroadcastsInDim S8388608 (![] : Fin 0 → Fin S8388608.rank)
  reducesTo_S8388608_S_d0 : S8388608.ReducesTo [0] S_
  h_S_ : 0 < S_.numel

variable [Facts]

def fn {F : FTy → Type} [FloatOps F] (main_arg0 : FVec F S8388608 .f32) (main_arg1 : IVec S8388608 32) : IVec S_ 1 :=
  let main_v0 : FVec F S8388608 .f32 := Host.absf main_arg0
  let main_cst : FVec F S_ .f32 := constant S_ .f32 0x7F800000#32
  let main_v1 : FVec F S8388608 .f32 := broadcastInDim S8388608 ![] bcast_S_S8388608 main_cst
  let main_v2 : IVec S8388608 1 := cmpf .olt main_v0 main_v1
  let main_c : IVec S_ 1 := constantI S_ 1 1#1
  let main_v3 : IVec S_ 1 := (fun x v => Host.reduce IntOp.andi x v reducesTo_S8388608_S_d0 h_S_) main_v2 main_c
  let main_c_0 : IVec S_ 32 := constantI S_ 32 0#32
  let main_v4 : IVec S8388608 32 := broadcastInDim S8388608 ![] bcast_S_S8388608 main_c_0
  let main_v5 : IVec S8388608 1 := cmpi .eq main_arg1 main_v4
  let main_c_1 : IVec S_ 32 := constantI S_ 32 1#32
  let main_v6 : IVec S8388608 32 := broadcastInDim S8388608 ![] bcast_S_S8388608 main_c_1
  let main_v7 : IVec S8388608 1 := cmpi .eq main_arg1 main_v6
  let main_v8 : IVec S8388608 1 := ori main_v5 main_v7
  let main_c_2 : IVec S_ 1 := constantI S_ 1 1#1
  let main_v9 : IVec S_ 1 := (fun x v => Host.reduce IntOp.andi x v reducesTo_S8388608_S_d0 h_S_) main_v8 main_c_2
  let main_v10 : IVec S_ 1 := andi main_v3 main_v9
  main_v10
-- ==== Kernel.lean ====
abbrev S8388608 : Shape := ⟨1, ![8388608]⟩
abbrev S65536x128 : Shape := ⟨2, ![65536, 128]⟩
abbrev S2x1x128 : Shape := ⟨3, ![2, 1, 128]⟩
abbrev S16384x128 : Shape := ⟨2, ![16384, 128]⟩
abbrev S1x1x128 : Shape := ⟨3, ![1, 1, 128]⟩
abbrev S128 : Shape := ⟨1, ![128]⟩
abbrev S1x128 : Shape := ⟨2, ![1, 128]⟩
abbrev S_ : Shape := ⟨0, ![]⟩

abbrev nBuf : Space → Nat
  | .hbm => 22
  | .vmem => 8
  | .smem => 0
  | _ => 0

abbrev bufTy : (tb : Table) → Fin (tcTables nBuf tb) → BufTy
  | .hbm, ⟨0, _⟩ => ⟨S8388608, .f32⟩
  | .hbm, ⟨1, _⟩ => ⟨S8388608, .i32⟩
  | .hbm, ⟨2, _⟩ => ⟨S65536x128, .f32⟩
  | .hbm, ⟨3, _⟩ => ⟨S65536x128, .i32⟩
  | .hbm, ⟨4, _⟩ => ⟨S2x1x128, .f32⟩
  | .hbm, ⟨5, _⟩ => ⟨S2x1x128, .f32⟩
  | .hbm, ⟨6, _⟩ => ⟨S_, .f32⟩
  | .hbm, ⟨7, _⟩ => ⟨S_, .f32⟩
  | .hbm, ⟨8, _⟩ => ⟨S_, .f32⟩
  | .hbm, ⟨9, _⟩ => ⟨S_, .f32⟩
  | .hbm, ⟨10, _⟩ => ⟨S_, .f32⟩
  | .hbm, ⟨11, _⟩ => ⟨S_, .f32⟩
  | .hbm, ⟨12, _⟩ => ⟨S_, .f32⟩
  | .hbm, ⟨13, _⟩ => ⟨S_, .f32⟩
  | .hbm, ⟨14, _⟩ => ⟨S_, .f32⟩
  | .hbm, ⟨15, _⟩ => ⟨S_, .f32⟩
  | .hbm, ⟨16, _⟩ => ⟨S_, .f32⟩
  | .hbm, ⟨17, _⟩ => ⟨S_, .f32⟩
  | .hbm, ⟨18, _⟩ => ⟨S_, .f32⟩
  | .hbm, ⟨19, _⟩ => ⟨S_, .i1⟩
  | .hbm, ⟨20, _⟩ => ⟨S_, .f32⟩
  | .hbm, ⟨21, _⟩ => ⟨S_, .f32⟩
  | .local _ .vmem, ⟨0, _⟩ => ⟨S16384x128, .f32⟩
  | .local _ .vmem, ⟨1, _⟩ => ⟨S16384x128, .f32⟩
  | .local _ .vmem, ⟨2, _⟩ => ⟨S16384x128, .i32⟩
  | .local _ .vmem, ⟨3, _⟩ => ⟨S16384x128, .i32⟩
  | .local _ .vmem, ⟨4, _⟩ => ⟨S1x1x128, .f32⟩
  | .local _ .vmem, ⟨5, _⟩ => ⟨S1x1x128, .f32⟩
  | .local _ .vmem, ⟨6, _⟩ => ⟨S1x1x128, .f32⟩
  | .local _ .vmem, ⟨7, _⟩ => ⟨S1x1x128, .f32⟩
  | _, _ => ⟨S8388608, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2_0 : Ref sig .tc := ⟨.hbm, 4, rfl⟩
abbrev main_v2_1 : Ref sig .tc := ⟨.hbm, 5, rfl⟩
abbrev main_cst : Ref sig .tc := ⟨.hbm, 6, rfl⟩
abbrev main_v3 : Ref sig .tc := ⟨.hbm, 7, rfl⟩
abbrev main_cst_0 : Ref sig .tc := ⟨.hbm, 8, rfl⟩
abbrev main_v4 : Ref sig .tc := ⟨.hbm, 9, rfl⟩
abbrev main_v5 : Ref sig .tc := ⟨.hbm, 10, rfl⟩
abbrev main_cst_1 : Ref sig .tc := ⟨.hbm, 11, rfl⟩
abbrev main_v6 : Ref sig .tc := ⟨.hbm, 12, rfl⟩
abbrev main_cst_2 : Ref sig .tc := ⟨.hbm, 13, rfl⟩
abbrev main_v7 : Ref sig .tc := ⟨.hbm, 14, rfl⟩
abbrev main_cst_3 : Ref sig .tc := ⟨.hbm, 15, rfl⟩
abbrev main_v8 : Ref sig .tc := ⟨.hbm, 16, rfl⟩
abbrev main_v9 : Ref sig .tc := ⟨.hbm, 17, rfl⟩
abbrev main_cst_4 : Ref sig .tc := ⟨.hbm, 18, rfl⟩
abbrev main_v10 : Ref sig .tc := ⟨.hbm, 19, rfl⟩
abbrev main_cst_5 : Ref sig .tc := ⟨.hbm, 20, rfl⟩
abbrev main_v11 : Ref sig .tc := ⟨.hbm, 21, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![2, 2], ![false, false]⟩

def cc0_transform_0 (i : grid0.Coords) : Fin 2 → Nat :=
  let arg0 : BitVec 32 := BitVec.ofNat 32 (i 0).val
  let arg1 : BitVec 32 := BitVec.ofNat 32 (i 1).val
  let c2_i32 : BitVec 32 := 2#32
  let v0 : BitVec 32 := Scalar.muli arg0 c2_i32
  let v1 : BitVec 32 := Scalar.addi v0 arg1
  let c0_i32 : BitVec 32 := 0#32
  let c0_i32_0 : BitVec 32 := 0#32
  ![v1.toNat, c0_i32.toNat]

def cc0_transform_1 (i : grid0.Coords) : Fin 2 → Nat :=
  let arg0 : BitVec 32 := BitVec.ofNat 32 (i 0).val
  let arg1 : BitVec 32 := BitVec.ofNat 32 (i 1).val
  let c2_i32 : BitVec 32 := 2#32
  let v0 : BitVec 32 := Scalar.muli arg0 c2_i32
  let v1 : BitVec 32 := Scalar.addi v0 arg1
  let c0_i32 : BitVec 32 := 0#32
  let c0_i32_0 : BitVec 32 := 0#32
  ![v1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S16384x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S16384x128 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x1x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x1x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

class Facts₀ : Prop where
  shapeCasts_S8388608_S65536x128 : S8388608.ShapeCasts S65536x128
  inb_S1x1x128_S1x1x128_0_0_0 : ∀ a, (![0, 0, 0] : Fin 3 → Nat) a + S1x1x128.size a ≤ S1x1x128.size a
  h_S1x1x128 : 0 < S1x1x128.numel
  inb_S16384x128_S16384x128_0_0 : ∀ a, (![0, 0] : Fin 2 → Nat) a + S16384x128.size a ≤ S16384x128.size a
  h_S16384x128 : 0 < S16384x128.numel
  shapeCasts_S16384x128_S16384x128 : S16384x128.ShapeCasts S16384x128
  reduces_S16384x128_S128 : S16384x128.Reduces [0] S128
  shapeCasts_S128_S1x128 : S128.ShapeCasts S1x128
  shapeCasts_S1x1x128_S1x1x128 : S1x1x128.ShapeCasts S1x1x128
  shapeCasts_S1x128_S1x1x128 : S1x128.ShapeCasts S1x1x128
  reducesTo_S2x1x128_S_d0_1_2 : S2x1x128.ReducesTo [0, 1, 2] S_
  h_S_ : 0 < S_.numel
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S16384x128.size a ≤ S65536x128.size a
  hwx0_0 : ∀ i : grid0.Coords, EltTy.bits .f32 = 32 ∨ (Rect.block (s := S65536x128) S16384x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S16384x128.size a ≤ S65536x128.size a
  hwx0_1 : ∀ i : grid0.Coords, EltTy.bits .i32 = 32 ∨ (Rect.block (s := S65536x128) S16384x128.size (cc0_transform_1 i) (hinb0_1 i)).WholeWords (EltTy.packing .i32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x1x128.size a ≤ S2x1x128.size a
  hwx0_2 : ∀ i : grid0.Coords, EltTy.bits .f32 = 32 ∨ (Rect.block (s := S2x1x128) S1x1x128.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x1x128.size a ≤ S2x1x128.size a
  hwx0_3 : ∀ i : grid0.Coords, EltTy.bits .f32 = 32 ∨ (Rect.block (s := S2x1x128) S1x1x128.size (cc0_transform_3 i) (hinb0_3 i)).WholeWords (EltTy.packing .f32)

variable [Facts₀]

abbrev win0_0 : Pipeline.Window sig grid0 :=
  Pipeline.Window.ofSpec (Memref.whole main_v0) S16384x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S16384x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v2_0) S1x1x128.size cc0_transform_2 reads0_2 true false 2 stage0_2 sem0_2
    hrank0 hreads0_2 hinb0_2 nbuf0_2 (Memref.isWhole_whole _) hwx0_2 hstage0_2

abbrev win0_3 : Pipeline.Window sig grid0 :=
  Pipeline.Window.ofSpec (Memref.whole main_v2_1) S1x1x128.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S8388608 : Shape := ⟨1, ![8388608]⟩
abbrev S_ : Shape := ⟨0, ![]⟩

abbrev nBuf : Space → Nat
  | .hbm => 31
  | .vmem => 0
  | .smem => 0
  | _ => 0

abbrev bufTy : (tb : Table) → Fin (tcTables nBuf tb) → BufTy
  | .hbm, ⟨0, _⟩ => ⟨S8388608, .f32⟩
  | .hbm, ⟨1, _⟩ => ⟨S8388608, .i32⟩
  | .hbm, ⟨2, _⟩ => ⟨S_, .i32⟩
  | .hbm, ⟨3, _⟩ => ⟨S8388608, .i32⟩
  | .hbm, ⟨4, _⟩ => ⟨S8388608, .i1⟩
  | .hbm, ⟨5, _⟩ => ⟨S_, .f32⟩
  | .hbm, ⟨6, _⟩ => ⟨S_, .f32⟩
  | .hbm, ⟨7, _⟩ => ⟨S8388608, .f32⟩
  | .hbm, ⟨8, _⟩ => ⟨S8388608, .f32⟩
  | .hbm, ⟨9, _⟩ => ⟨S_, .f32⟩
  | .hbm, ⟨10, _⟩ => ⟨S_, .f32⟩
  | .hbm, ⟨11, _⟩ => ⟨S_, .i32⟩
  | .hbm, ⟨12, _⟩ => ⟨S8388608, .i32⟩
  | .hbm, ⟨13, _⟩ => ⟨S8388608, .i1⟩
  | .hbm, ⟨14, _⟩ => ⟨S_, .f32⟩
  | .hbm, ⟨15, _⟩ => ⟨S_, .f32⟩
  | .hbm, ⟨16, _⟩ => ⟨S8388608, .f32⟩
  | .hbm, ⟨17, _⟩ => ⟨S8388608, .f32⟩
  | .hbm, ⟨18, _⟩ => ⟨S_, .f32⟩
  | .hbm, ⟨19, _⟩ => ⟨S_, .f32⟩
  | .hbm, ⟨20, _⟩ => ⟨S_, .f32⟩
  | .hbm, ⟨21, _⟩ => ⟨S_, .f32⟩
  | .hbm, ⟨22, _⟩ => ⟨S_, .f32⟩
  | .hbm, ⟨23, _⟩ => ⟨S_, .f32⟩
  | .hbm, ⟨24, _⟩ => ⟨S_, .f32⟩
  | .hbm, ⟨25, _⟩ => ⟨S_, .f32⟩
  | .hbm, ⟨26, _⟩ => ⟨S_, .f32⟩
  | .hbm, ⟨27, _⟩ => ⟨S_, .f32⟩
  | .hbm, ⟨28, _⟩ => ⟨S_, .i1⟩
  | .hbm, ⟨29, _⟩ => ⟨S_, .f32⟩
  | .hbm, ⟨30, _⟩ => ⟨S_, .f32⟩
  | _, _ => ⟨S8388608, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_c : Ref sig .tc := ⟨.hbm, 2, rfl⟩
abbrev main_v0 : Ref sig .tc := ⟨.hbm, 3, rfl⟩
abbrev main_v1 : Ref sig .tc := ⟨.hbm, 4, rfl⟩
abbrev main_cst : Ref sig .tc := ⟨.hbm, 5, rfl⟩
abbrev main_call0_v0 : Ref sig .tc := ⟨.hbm, 6, rfl⟩
abbrev main_call0_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_c_1 : Ref sig .tc := ⟨.hbm, 11, rfl⟩
abbrev main_v4 : Ref sig .tc := ⟨.hbm, 12, rfl⟩
abbrev main_v5 : Ref sig .tc := ⟨.hbm, 13, rfl⟩
abbrev main_cst_2 : Ref sig .tc := ⟨.hbm, 14, rfl⟩
abbrev main_call1_v0 : Ref sig .tc := ⟨.hbm, 15, rfl⟩
abbrev main_call1_v1 : Ref sig .tc := ⟨.hbm, 16, rfl⟩
abbrev main_v6 : Ref sig .tc := ⟨.hbm, 17, rfl⟩
abbrev main_cst_3 : Ref sig .tc := ⟨.hbm, 18, rfl⟩
abbrev main_v7 : Ref sig .tc := ⟨.hbm, 19, rfl⟩
abbrev main_cst_4 : Ref sig .tc := ⟨.hbm, 20, rfl⟩
abbrev main_v8 : Ref sig .tc := ⟨.hbm, 21, rfl⟩
abbrev main_cst_5 : Ref sig .tc := ⟨.hbm, 22, rfl⟩
abbrev main_v9 : Ref sig .tc := ⟨.hbm, 23, rfl⟩
abbrev main_cst_6 : Ref sig .tc := ⟨.hbm, 24, rfl⟩
abbrev main_v10 : Ref sig .tc := ⟨.hbm, 25, rfl⟩
abbrev main_v11 : Ref sig .tc := ⟨.hbm, 26, rfl⟩
abbrev main_cst_7 : Ref sig .tc := ⟨.hbm, 27, rfl⟩
abbrev main_v12 : Ref sig .tc := ⟨.hbm, 28, rfl⟩
abbrev main_cst_8 : Ref sig .tc := ⟨.hbm, 29, rfl⟩
abbrev main_v13 : Ref sig .tc := ⟨.hbm, 30, rfl⟩

abbrev nD : Nat := 1
abbrev τ : Topo := Topo.v7x

variable {F : FTy → Type} [FloatOps F]

class Facts₀ : Prop where
  bcast_S_S8388608 : S_.BroadcastsInDim S8388608 (![] : Fin 0 → Fin S8388608.rank)
  reducesTo_S8388608_S_d0 : S8388608.ReducesTo [0] S_
  h_S_ : 0 < S_.numel

variable [Facts₀]

class Facts : Prop extends Facts₀ where

variable [Facts]
-- ==== Proof.KernelPieces.lean ====
/-
  What one run of the kernel body leaves in its two output blocks, as values.

  The body reads a block `x0` of predictions (16384 rows by 128 lanes) and the block `x1` of their labels, and adds to
  each of its two running lane vectors (shape [1,1,128]) one lane vector computed from the block: to the first the sum
  of every row of `x0` (`k0_pay4 x0 acc`: `acc + Σ_r x0[r, ·]`), to the second the sum of the rows of `x0` with the
  entries whose label is not 1 replaced by zero (`k0_pay5 x0 x1 acc`). At the first step of a core (case A) the running
  vectors are first reset to zero (`k0_pay1`, `k0_pay2`: the zero lane vector), so the step leaves the block's lane
  sums added to zero; at a later step (case B) they are added to what the step before left (`xo2`, `xo3`).
  Each store covers the whole output block, so what the block holds afterwards is the last store's value.
-/
import proofs.«171308_j62929860821443_2_alg».proof.Proof.Gen.KernelIdeal.Frame
import Idealize.ShloMosaic.Lib.Pipeline.Value
import Idealize.ShloMosaic.Lib.Tactic

noncomputable section

open Idealize.ShloMosaic Idealize.ShloMosaic.TcCoe Idealize.SL.Sem
open Idealize.ShloMosaic.Pipeline (Dat)

namespace Cert.KernelIdeal.Pieces

open Cert.KernelIdeal Cert.KernelIdeal.Gen

variable {F : FTy → Type} [FloatOps F]

theorem hz3 : (![0, 0, 0] : Fin 3 → Nat) = fun _ => 0 := funext fun a => by fin_cases a <;> rfl
theorem hz2 : (![0, 0] : Fin 2 → Nat) = fun _ => 0 := funext fun a => by fin_cases a <;> rfl

/-- A later step leaves in the first output block the running vector plus the block's lane sums. -/
theorem out_B_2 (c : Dev nD) (i : grid0.Coords) (a2 : Memref sig .tc .vmem S16384x128 .f32) (h2 : a2.IsWhole)
    (a3 : Memref sig .tc .vmem S16384x128 .i32) (h3 : a3.IsWhole) (a4 : Memref sig .tc .vmem S1x1x128 .f32) (h4 : a4.IsWhole)
    (a5 : Memref sig .tc .vmem S1x1x128 .f32) (h5 : a5.IsWhole) (hc : ¬cond0_0 i)
    (x0 : Vec F S16384x128 .f32) (x1 : Vec F S16384x128 .i32) (xo2 xo3 : Vec F S1x1x128 .f32) :
    out0_B_2 c i a2 h2 a3 h3 a4 h4 a5 h5 hc x0 x1 xo2 xo3 = k0_pay4 x0 xo2 := by
  unfold out0_B_2
  rw [View.read_writes_eq_canon _ _ _ (cover0_B_2 c i a2 h2 a3 h3 a4 h4 a5 h5 hc x0 x1 xo2 xo3)]
  unfold kernelRun0_B
  dsimp only
  rw [View.canon_unit_zero hz3]
  simp only [View.readAt_eq_ld, h2.read_unread, h4.read_unread, View.ld_unit_zero (S := S16384x128) hz2,
    View.ld_unit_zero (S := S1x1x128) hz3]

/-- A later step leaves in the second output block the running vector plus the block's masked lane sums. -/
theorem out_B_3 (c : Dev nD) (i : grid0.Coords) (a2 : Memref sig .tc .vmem S16384x128 .f32) (h2 : a2.IsWhole)
    (a3 : Memref sig .tc .vmem S16384x128 .i32) (h3 : a3.IsWhole) (a4 : Memref sig .tc .vmem S1x1x128 .f32) (h4 : a4.IsWhole)
    (a5 : Memref sig .tc .vmem S1x1x128 .f32) (h5 : a5.IsWhole) (hc : ¬cond0_0 i)
    (x0 : Vec F S16384x128 .f32) (x1 : Vec F S16384x128 .i32) (xo2 xo3 : Vec F S1x1x128 .f32) :
    out0_B_3 c i a2 h2 a3 h3 a4 h4 a5 h5 hc x0 x1 xo2 xo3 = k0_pay5 x0 x1 xo3 := by
  unfold out0_B_3
  rw [View.read_writes_eq_canon _ _ _ (cover0_B_3 c i a2 h2 a3 h3 a4 h4 a5 h5 hc x0 x1 xo2 xo3)]
  unfold kernelRun0_B
  dsimp only
  rw [View.canon_unit_zero hz3]
  simp only [View.readAt_eq_ld, h2.read_unread, h3.read_unread, h5.read_unread, View.ld_unit_zero (S := S16384x128) hz2,
    View.ld_unit_zero (S := S1x1x128) hz3]

/-- A core's first step leaves in the first output block the zero vector plus the block's lane sums: the reset store
    is read back by the accumulation that follows it. -/
theorem out_A_2 (c : Dev nD) (i : grid0.Coords) (a2 : Memref sig .tc .vmem S16384x128 .f32) (h2 : a2.IsWhole)
    (a3 : Memref sig .tc .vmem S16384x128 .i32) (h3 : a3.IsWhole) (a4 : Memref sig .tc .vmem S1x1x128 .f32) (h4 : a4.IsWhole)
    (a5 : Memref sig .tc .vmem S1x1x128 .f32) (h5 : a5.IsWhole) (hc : cond0_0 i)
    (x0 : Vec F S16384x128 .f32) (x1 : Vec F S16384x128 .i32) :
    out0_A_2 c i a2 h2 a3 h3 a4 h4 a5 h5 hc x0 x1 = k0_pay4 x0 (k0_pay1 (F := F)) := by
  unfold out0_A_2
  rw [View.read_writes_eq_canon _ _ _ (cover0_A_2 c i a2 h2 a3 h3 a4 h4 a5 h5 hc x0 x1)]
  unfold kernelRun0_A
  dsimp only
  sl_unfold_words
  rw [View.canon_cons_unit_zero (S := S1x1x128) hz3, View.readCov_unit_zero (S := S1x1x128) _ hz3]
  simp only [View.readAt_eq_ld, h2.read_unread, View.ld_unit_zero (S := S16384x128) hz2]

/-- A core's first step leaves in the second output block the zero vector plus the block's masked lane sums. -/
theorem out_A_3 (c : Dev nD) (i : grid0.Coords) (a2 : Memref sig .tc .vmem S16384x128 .f32) (h2 : a2.IsWhole)
    (a3 : Memref sig .tc .vmem S16384x128 .i32) (h3 : a3.IsWhole) (a4 : Memref sig .tc .vmem S1x1x128 .f32) (h4 : a4.IsWhole)
    (a5 : Memref sig .tc .vmem S1x1x128 .f32) (h5 : a5.IsWhole) (hc : cond0_0 i)
    (x0 : Vec F S16384x128 .f32) (x1 : Vec F S16384x128 .i32) :
    out0_A_3 c i a2 h2 a3 h3 a4 h4 a5 h5 hc x0 x1 = k0_pay5 x0 x1 (k0_pay2 (F := F)) := by
  unfold out0_A_3
  rw [View.read_writes_eq_canon _ _ _ (cover0_A_3 c i a2 h2 a3 h3 a4 h4 a5 h5 hc x0 x1)]
  unfold kernelRun0_A
  dsimp only
  sl_unfold_words
  rw [View.canon_cons_unit_zero (S := S1x1x128) hz3, View.readCov_unit_zero (S := S1x1x128) _ hz3]
  simp only [View.readAt_eq_ld, h2.read_unread, h3.read_unread, View.ld_unit_zero (S := S16384x128) hz2]

end Cert.KernelIdeal.Pieces

end
-- ==== Proof.KernelArrays.lean ====
/-
  The two output arrays after the region, as whole-array functions.

  The grid has four points `t = 2k + i` (core `k`, step `i`). Each output array has shape [2,1,128]; its block `k`
  (shape [1,1,128]) stays in the core's staging buffer over the core's two steps and is written back after the odd
  point `2k + 1` only. So the array ends holding, at `(k, 0, l)`, lane `l` of what point `2k + 1` left in the block
  (`G2`, `G3`), and what an odd point leaves is the reset value with the lane sums of the core's two input blocks
  added, the even point's first (`outsAt_odd`). The two blocks cover the array, so it holds nothing else.
-/
import proofs.«171308_j62929860821443_2_alg».proof.Proof.Gen.KernelIdeal.Frame
import Idealize.ShloMosaic.Lib.Pipeline.Value
import Idealize.ShloMosaic.Lib.Tactic
import proofs.«171308_j62929860821443_2_alg».proof.Proof.KernelPieces
import Idealize.ShloMosaic.Lib.ValueIdx

noncomputable section

open Idealize.ShloMosaic Idealize.ShloMosaic.TcCoe Idealize.SL.Sem
open Idealize.ShloMosaic.Pipeline (Dat)

namespace Cert.KernelIdeal.Arrays

open Cert.KernelIdeal Cert.KernelIdeal.Gen

variable {F : FTy → Type} [FloatOps F]

open Cert.KernelIdeal.Pieces Idealize.ShloMosaic.ValueIdx

variable (m : (ℓ : Loc nD τ sig) → Buf (Elt F) ℓ)

/-- The point before. -/
abbrev prev (t : Fin cfg0.N) : Fin cfg0.N := ⟨t.val - 1, Nat.lt_of_le_of_lt (Nat.sub_le _ _) t.isLt⟩

/-- After an odd point the two output blocks hold the reset values with the lane sums of the point before and of the
    point itself added, in that order: the even point before it reset and accumulated its block, the odd point
    accumulated its own block onto that. -/
theorem outsAt_odd (c : Dev nD) (t : Fin cfg0.N) (h1 : t.val % 2 = 1) :
    outsAt0 m c t.val t.isLt
      = (k0_pay4 (iblk m c 0 t) (k0_pay4 (iblk m c 0 (prev t)) (k0_pay1 (F := F))),
         k0_pay5 (iblk m c 0 t) (iblk m c 1 t) (k0_pay5 (iblk m c 0 (prev t)) (iblk m c 1 (prev t)) (k0_pay2 (F := F)))) := by
  have hB : ¬ t.val % 2 = 0 := by omega
  have hA : (prev t).val % 2 = 0 := by show (t.val - 1) % 2 = 0; omega
  rw [outsAt0_B m c t hB, out_B_2, out_B_3]
  have e := outsAt0_A m c (prev t) hA
  rw [out_A_2, out_A_3] at e
  have e' : outsAt0 m c (t.val - 1) (Nat.lt_of_le_of_lt (Nat.sub_le _ _) t.isLt)
      = (k0_pay4 (iblk m c 0 (prev t)) (k0_pay1 (F := F)), k0_pay5 (iblk m c 0 (prev t)) (iblk m c 1 (prev t)) (k0_pay2 (F := F))) := e
  rw [e']

/-- The output windows' block index: core `t / 2` on the leading axis, zero on the others. -/
theorem idx2 : ∀ t : Fin cfg0.N, win0_2.index t (0 : Fin 3) = t.val / 2 ∧ win0_2.index t (1 : Fin 3) = 0 ∧ win0_2.index t (2 : Fin 3) = 0 :=
  (by decide +kernel : ∀ t : Fin grid0.N, win0_2.index t (0 : Fin 3) = t.val / 2 ∧ win0_2.index t (1 : Fin 3) = 0 ∧ win0_2.index t (2 : Fin 3) = 0)
theorem idx3 : ∀ t : Fin cfg0.N, win0_3.index t (0 : Fin 3) = t.val / 2 ∧ win0_3.index t (1 : Fin 3) = 0 ∧ win0_3.index t (2 : Fin 3) = 0 :=
  (by decide +kernel : ∀ t : Fin grid0.N, win0_3.index t (0 : Fin 3) = t.val / 2 ∧ win0_3.index t (1 : Fin 3) = 0 ∧ win0_3.index t (2 : Fin 3) = 0)

/-- What the two output blocks hold after point `n`, for any natural `n` (the reset values past the grid). -/
def accAt (c : Dev nD) (n : ℕ) : Vec F S1x1x128 .f32 × Vec F S1x1x128 .f32 :=
  if h : n < cfg0.N then outsAt0 m c n h else (k0_pay1, k0_pay2)

/-- The first output array as one function of its index `(k, 0, l)`: lane `l` of what core `k`'s last point
    (`2k + 1`) left in the first output block. -/
def G2 (c : Dev nD) : Buf (Elt F) ((c : Thread nD τ).loc main_v2_0) :=
  fun i => (accAt m c (2 * (i 0).val + 1)).1 (ix3 0 0 (i 2))

/-- The second output array likewise. -/
def G3 (c : Dev nD) : Buf (Elt F) ((c : Thread nD τ).loc main_v2_1) :=
  fun i => (accAt m c (2 * (i 0).val + 1)).2 (ix3 0 0 (i 2))

/-- What an odd point `t` writes back to the first output array is block `t / 2` of `G2`. -/
theorem flushed2_eq (c : Dev nD) (t : Fin cfg0.N) (hf : (cfg0.win 2).flush t = true) :
    (dats m 0 c).flushed 2 t = ((cfg0.win 2).blk t).view.read (Elt F) (G2 m c) := by
  have h1 : t.val % 2 = 1 := (flush0_2 t).mp hf
  obtain ⟨e0, e1, e2⟩ := idx2 t
  show (cfg0.win 2).cut (grid0.coords t) ((dats m 0 c).after 2 t) = _
  rw [after0_2]
  funext y
  have hy0 : (y 0).val = 0 := by have : (y 0).val < 1 := (y 0).isLt; omega
  have hy1 : (y 1).val = 0 := by have : (y 1).val < 1 := (y 1).isLt; omega
  have hk : 2 * ((((cfg0.win 2).blk t).view.emb y) 0).val + 1 = t.val := by
    show 2 * (win0_2.index t (0 : Fin 3) * 1 + 1 * (y 0).val) + 1 = t.val
    rw [e0]; omega
  show _ = G2 m c (((cfg0.win 2).blk t).view.emb y)
  unfold G2
  rw [hk]
  unfold accAt
  rw [dif_pos t.isLt]
  refine congrArg (outsAt0 m c t.val t.isLt).1 ?_
  funext a
  apply Fin.ext
  match a with
  | ⟨0, _⟩ => exact hy0
  | ⟨1, _⟩ => exact hy1
  | ⟨2, _⟩ => show (y 2).val = win0_2.index t (2 : Fin 3) * 128 + 1 * (y 2).val; rw [e2]; omega

/-- What an odd point `t` writes back to the second output array is block `t / 2` of `G3`. -/
theorem flushed3_eq (c : Dev nD) (t : Fin cfg0.N) (hf : (cfg0.win 3).flush t = true) :
    (dats m 0 c).flushed 3 t = ((cfg0.win 3).blk t).view.read (Elt F) (G3 m c) := by
  have h1 : t.val % 2 = 1 := (flush0_3 t).mp hf
  obtain ⟨e0, e1, e2⟩ := idx3 t
  show (cfg0.win 3).cut (grid0.coords t) ((dats m 0 c).after 3 t) = _
  rw [after0_3]
  funext y
  have hy0 : (y 0).val = 0 := by have : (y 0).val < 1 := (y 0).isLt; omega
  have hy1 : (y 1).val = 0 := by have : (y 1).val < 1 := (y 1).isLt; omega
  have hk : 2 * ((((cfg0.win 3).blk t).view.emb y) 0).val + 1 = t.val := by
    show 2 * (win0_3.index t (0 : Fin 3) * 1 + 1 * (y 0).val) + 1 = t.val
    rw [e0]; omega
  show _ = G3 m c (((cfg0.win 3).blk t).view.emb y)
  unfold G3
  rw [hk]
  unfold accAt
  rw [dif_pos t.isLt]
  refine congrArg (outsAt0 m c t.val t.isLt).2 ?_
  funext a
  apply Fin.ext
  match a with
  | ⟨0, _⟩ => exact hy0
  | ⟨1, _⟩ => exact hy1
  | ⟨2, _⟩ => show (y 2).val = win0_3.index t (2 : Fin 3) * 128 + 1 * (y 2).val; rw [e2]; omega

/-- An index of an output array is in point `t`'s block iff each coordinate is in the block's range on its axis. -/
theorem mem_blk2 (t : Fin cfg0.N) (i : S2x1x128.Idx) :
    i ∈ ((cfg0.win 2).blk t).view.set ↔ ∀ a : Fin 3, win0_2.index t a * S1x1x128.size a ≤ (i a).val ∧ (i a).val < win0_2.index t a * S1x1x128.size a + S1x1x128.size a := by
  show i ∈ ((View.whole main_v2_0).slice (win0_2.rect t)).set ↔ _
  rw [View.set_slice_whole, Rect.mem_set_unit]
  exact Iff.rfl
theorem mem_blk3 (t : Fin cfg0.N) (i : S2x1x128.Idx) :
    i ∈ ((cfg0.win 3).blk t).view.set ↔ ∀ a : Fin 3, win0_3.index t a * S1x1x128.size a ≤ (i a).val ∧ (i a).val < win0_3.index t a * S1x1x128.size a + S1x1x128.size a := by
  show i ∈ ((View.whole main_v2_1).slice (win0_3.rect t)).set ↔ _
  rw [View.set_slice_whole, Rect.mem_set_unit]
  exact Iff.rfl

/-- The last point of the core that owns index `i`'s block: `2 i₀ + 1`. -/
def lastPt (k : ℕ) (hk : k < 2) : Fin cfg0.N := ⟨2 * k + 1, by rw [show cfg0.N = 4 from N_0]; omega⟩

/-- The two cores' last points write back the two blocks of the first output array, which are all of it: the array
    ends holding `G2`. -/
theorem final2 (c : Dev nD) : (dats m 0 c).arrAt 2 cfg0.N = G2 m c :=
  (dats m 0 c).arrAt_eq_of_cover 2 (G2 m c) (flushed2_eq m c) fun i => by
    have hi0 : (i 0 : ℕ) < 2 := (i 0).isLt
    have hi1 : (i 1 : ℕ) < 1 := (i 1).isLt
    have hi2 : (i 2 : ℕ) < 128 := (i 2).isLt
    obtain ⟨e0, e1, e2⟩ := idx2 (lastPt (i 0 : ℕ) hi0)
    have ev : (lastPt (i 0 : ℕ) hi0).val = 2 * (i 0 : ℕ) + 1 := rfl
    refine ⟨lastPt (i 0 : ℕ) hi0, (flush0_2 _).mpr (by rw [ev]; omega), ?_⟩
    rw [mem_blk2]
    intro a
    match a with
    | ⟨0, _⟩ =>
      show win0_2.index (lastPt (i 0 : ℕ) hi0) (0 : Fin 3) * 1 ≤ (i 0 : ℕ) ∧ (i 0 : ℕ) < win0_2.index (lastPt (i 0 : ℕ) hi0) (0 : Fin 3) * 1 + 1
      rw [e0, ev]; omega
    | ⟨1, _⟩ =>
      show win0_2.index (lastPt (i 0 : ℕ) hi0) (1 : Fin 3) * 1 ≤ (i 1 : ℕ) ∧ (i 1 : ℕ) < win0_2.index (lastPt (i 0 : ℕ) hi0) (1 : Fin 3) * 1 + 1
      rw [e1]; omega
    | ⟨2, _⟩ =>
      show win0_2.index (lastPt (i 0 : ℕ) hi0) (2 : Fin 3) * 128 ≤ (i 2 : ℕ) ∧ (i 2 : ℕ) < win0_2.index (lastPt (i 0 : ℕ) hi0) (2 : Fin 3) * 128 + 128
      rw [e2]; omega

/-- The second output array ends holding `G3`. -/
theorem final3 (c : Dev nD) : (dats m 0 c).arrAt 3 cfg0.N = G3 m c :=
  (dats m 0 c).arrAt_eq_of_cover 3 (G3 m c) (flushed3_eq m c) fun i => by
    have hi0 : (i 0 : ℕ) < 2 := (i 0).isLt
    have hi1 : (i 1 : ℕ) < 1 := (i 1).isLt
    have hi2 : (i 2 : ℕ) < 128 := (i 2).isLt
    obtain ⟨e0, e1, e2⟩ := idx3 (lastPt (i 0 : ℕ) hi0)
    have ev : (lastPt (i 0 : ℕ) hi0).val = 2 * (i 0 : ℕ) + 1 := rfl
    refine ⟨lastPt (i 0 : ℕ) hi0, (flush0_3 _).mpr (by rw [ev]; omega), ?_⟩
    rw [mem_blk3]
    intro a
    match a with
    | ⟨0, _⟩ =>
      show win0_3.index (lastPt (i 0 : ℕ) hi0) (0 : Fin 3) * 1 ≤ (i 0 : ℕ) ∧ (i 0 : ℕ) < win0_3.index (lastPt (i 0 : ℕ) hi0) (0 : Fin 3) * 1 + 1
      rw [e0, ev]; omega
    | ⟨1, _⟩ =>
      show win0_3.index (lastPt (i 0 : ℕ) hi0) (1 : Fin 3) * 1 ≤ (i 1 : ℕ) ∧ (i 1 : ℕ) < win0_3.index (lastPt (i 0 : ℕ) hi0) (1 : Fin 3) * 1 + 1
      rw [e1]; omega
    | ⟨2, _⟩ =>
      show win0_3.index (lastPt (i 0 : ℕ) hi0) (2 : Fin 3) * 128 ≤ (i 2 : ℕ) ∧ (i 2 : ℕ) < win0_3.index (lastPt (i 0 : ℕ) hi0) (2 : Fin 3) * 128 + 128
      rw [e2]; omega

end Cert.KernelIdeal.Arrays

end
-- ==== Proof.KernelLanes.lean ====
/-
  The body's two accumulations read at a lane, over the extended reals.

  The body adds to a running lane vector `acc` (shape [1,1,128]) the lane sums of a block `x` of 16384 rows by 128
  lanes: a sum along the row axis, re-laid from [128] through [1,128] to [1,1,128]. At lane `l` that is
  `acc[0,0,l] + Σ_r x[r,l]`. The masked accumulation first replaces every entry whose label is not `1` by zero, so at
  lane `l` it is `acc[0,0,l] + Σ_r (if t[r,l] = 1 then x[r,l] else 0)`. Re-laying keeps the row-major position: lane
  `l` of [128] is position `l` of [1,128] and of [1,1,128].
-/
import proofs.«171308_j62929860821443_2_alg».proof.Proof.Gen.KernelIdeal.Skeleton
import Idealize.ShloMosaic.Lib.Pipeline.Value
import Idealize.ShloMosaic.Lib.ValueIdx
import Idealize.ShloMosaic.PureOps.Ideal.Laws

noncomputable section

open scoped BigOperators
open Idealize.ShloMosaic Idealize.ShloMosaic.ValueIdx

namespace Cert.KernelIdeal.Lanes

open Cert.KernelIdeal Cert.KernelIdeal.Gen

/-- The sum along the row axis at lane `l`: the sum over the 16384 rows of the entry in that lane. -/
theorem laneSum (src : FVec Ideal S16384x128 .f32) (hφ : FKind.Formats .f32)
    (hacc : (0x00000000#32 : BitVec FTy.f32.bits) = FKind.add.neutral .f32 hφ) (l : Fin 128) :
    multiReduction (F := Ideal) .add [0] S128 src 0x00000000#32 Gen.reduces_S16384x128_S128 hφ hacc (ix1 l)
      = ∑ r : Fin 16384, src (ix2 r l) := by
  refine (Ideal.multiReduction_add_single src 0x00000000#32 Gen.reduces_S16384x128_S128 hφ hacc (ix1 l)).trans ?_
  refine Finset.sum_congr rfl fun r _ => congrArg src ?_
  funext a
  match a with
  | ⟨0, _⟩ => rfl
  | ⟨1, _⟩ => rfl

/-- A lane vector re-laid as [1,128] and then as [1,1,128] reads at `(0, 0, l)` its lane `l`: the three indices have
    the same row-major position `l`. -/
theorem cast3_apply (v : FVec Ideal S128 .f32) (l : Fin 128) :
    shapeCast S1x1x128 (shapeCast S1x128 v Gen.shapeCasts_S128_S1x128) Gen.shapeCasts_S1x128_S1x1x128 (ix3 0 0 l) = v (ix1 l) := by
  refine (shapeCast_apply _ Gen.shapeCasts_S1x128_S1x1x128 (ix3 0 0 l) (ix2 0 l) ?_).trans
    (shapeCast_apply _ Gen.shapeCasts_S128_S1x128 (ix2 0 l) (ix1 l) ?_)
  · rw [Shape.rowMajor_val_two, Shape.rowMajor_val_three]
    show (0 : ℕ) * 128 + l.val = ((0 : ℕ) * 1 + 0) * 128 + l.val
    omega
  · rw [Shape.rowMajor_val_one, Shape.rowMajor_val_two]
    show l.val = (0 : ℕ) * 128 + l.val
    omega

/-- A select on the equality test of two words is the `if` on their equality. -/
theorem select_cmpi_eq {α : Type} (a b : BitVec 32) (x y : α) :
    Scalar.select (IntOp.cmpi .eq a b) x y = if a = b then x else y := by
  by_cases h : a = b
  · rw [if_pos h, IntOp.cmpi_eq.mpr h, select_one]
  · rw [if_neg h, eq_zero_of_ne_one (fun h1 => h (IntOp.cmpi_eq.mp h1)), select_zero]

/-- The plain accumulation at lane `l`: the running value plus the lane's sum over the block's rows. -/
theorem pay4_apply (x : Vec Ideal S16384x128 .f32) (acc : Vec Ideal S1x1x128 .f32) (l : Fin 128) :
    k0_pay4 (F := Ideal) x acc (ix3 0 0 l) = acc (ix3 0 0 l) + ∑ r : Fin 16384, x (ix2 r l) := by
  unfold k0_pay4 k0_pay3
  refine (addf_apply _ _ _).trans ?_
  refine congrArg₂ (· + ·) (congrFun (shapeCast_self acc _) _) ((cast3_apply _ l).trans ((laneSum _ _ _ l).trans ?_))
  exact Finset.sum_congr rfl fun r _ => congrFun (shapeCast_self x _) _

/-- The masked accumulation at lane `l`: the running value plus the lane's sum over the rows whose label is `1`. -/
theorem pay5_apply (x : Vec Ideal S16384x128 .f32) (t : Vec Ideal S16384x128 .i32) (acc : Vec Ideal S1x1x128 .f32) (l : Fin 128) :
    k0_pay5 (F := Ideal) x t acc (ix3 0 0 l)
      = acc (ix3 0 0 l) + ∑ r : Fin 16384, (if t (ix2 r l) = 1#32 then x (ix2 r l) else 0) := by
  unfold k0_pay5 k0_pay3
  refine (addf_apply _ _ _).trans ?_
  refine congrArg₂ (· + ·) (congrFun (shapeCast_self acc _) _) ((cast3_apply _ l).trans ((laneSum _ _ _ l).trans ?_))
  refine Finset.sum_congr rfl fun r _ => ?_
  have et : shapeCast S16384x128 t Gen.shapeCasts_S16384x128_S16384x128 (ix2 r l) = t (ix2 r l) :=
    congrFun (shapeCast_self t _) _
  have ex : shapeCast S16384x128 x Gen.shapeCasts_S16384x128_S16384x128 (ix2 r l) = x (ix2 r l) :=
    congrFun (shapeCast_self x _) _
  show Scalar.select (IntOp.cmpi .eq (shapeCast S16384x128 t Gen.shapeCasts_S16384x128_S16384x128 (ix2 r l)) 1#32)
    (shapeCast S16384x128 x Gen.shapeCasts_S16384x128_S16384x128 (ix2 r l)) (Ideal.ofBits .f32 0x00000000#32) = _
  rw [et, ex, select_cmpi_eq, Ideal.ofBits_zero_f32]

/-- The reset value is zero in every lane. -/
theorem pay1_apply (j : S1x1x128.Idx) : k0_pay1 (F := Ideal) j = 0 := Ideal.ofBits_zero_f32
theorem pay2_apply (j : S1x1x128.Idx) : k0_pay2 (F := Ideal) j = 0 := Ideal.ofBits_zero_f32

end Cert.KernelIdeal.Lanes

end
-- ==== Proof.KernelBlocks.lean ====
/-
  The input windows' blocks read at an element.

  Input window `w` (the predictions, `w = 0`; the labels, `w = 1`) stages at grid point `t` the block of 16384 rows
  whose block index on the row axis is `t` itself (`2k + i` for core `k`, step `i`) and `0` on the lane axis. So row
  `r`, lane `l` of the block at `t` is row `t · 16384 + r`, lane `l` of the [65536,128] array.
-/
import proofs.«171308_j62929860821443_2_alg».proof.Proof.Gen.KernelIdeal.Frame
import Idealize.ShloMosaic.Lib.Pipeline.Value
import Idealize.ShloMosaic.Lib.Tactic
import Idealize.ShloMosaic.Lib.ValueIdx

noncomputable section

open Idealize.ShloMosaic Idealize.ShloMosaic.TcCoe Idealize.SL.Sem
open Idealize.ShloMosaic.Pipeline (Dat)

namespace Cert.KernelIdeal.Blocks

open Cert.KernelIdeal Cert.KernelIdeal.Gen

variable {F : FTy → Type} [FloatOps F]

open Idealize.ShloMosaic.ValueIdx

variable (m : (ℓ : Loc nD τ sig) → Buf (Elt F) ℓ)

/-- The input windows' block index at point `t`: `t` on the row axis, `0` on the lane axis. -/
theorem idx0 : ∀ t : Fin cfg0.N, win0_0.index t (0 : Fin 2) = t.val ∧ win0_0.index t (1 : Fin 2) = 0 :=
  (by decide +kernel : ∀ t : Fin grid0.N, win0_0.index t (0 : Fin 2) = t.val ∧ win0_0.index t (1 : Fin 2) = 0)
theorem idx1 : ∀ t : Fin cfg0.N, win0_1.index t (0 : Fin 2) = t.val ∧ win0_1.index t (1 : Fin 2) = 0 :=
  (by decide +kernel : ∀ t : Fin grid0.N, win0_1.index t (0 : Fin 2) = t.val ∧ win0_1.index t (1 : Fin 2) = 0)

/-- Row `t · 16384 + r` of the [65536,128] array. -/
def rowOf (t : Fin cfg0.N) (r : Fin 16384) : Fin 65536 :=
  ⟨t.val * 16384 + r.val, by have h : t.val < 4 := lt_of_lt_of_eq t.isLt (show cfg0.N = 4 from N_0); have := r.isLt; omega⟩

theorem iblk0_apply (c : Dev nD) (t : Fin cfg0.N) (r : Fin 16384) (l : Fin 128) :
    (iblk m c 0 t : Vec F S16384x128 .f32) (ix2 r l) = (V m c main_v0 : S65536x128.Idx → Elt F .f32) (ix2 (rowOf t r) l) := by
  obtain ⟨e0, e1⟩ := idx0 t
  unfold iblk
  rw [View.read_apply]
  show V m c main_v0 _ = V m c main_v0 _
  refine congrArg (V m c main_v0) ?_
  funext a
  apply Fin.ext
  match a with
  | ⟨0, _⟩ => show win0_0.index t (0 : Fin 2) * 16384 + 1 * r.val = t.val * 16384 + r.val; rw [e0]; omega
  | ⟨1, _⟩ => show win0_0.index t (1 : Fin 2) * 128 + 1 * l.val = l.val; rw [e1]; omega

theorem iblk1_apply (c : Dev nD) (t : Fin cfg0.N) (r : Fin 16384) (l : Fin 128) :
    (iblk m c 1 t : Vec F S16384x128 .i32) (ix2 r l) = (V m c main_v1 : S65536x128.Idx → Elt F .i32) (ix2 (rowOf t r) l) := by
  obtain ⟨e0, e1⟩ := idx1 t
  unfold iblk
  rw [View.read_apply]
  show V m c main_v1 _ = V m c main_v1 _
  refine congrArg (V m c main_v1) ?_
  funext a
  apply Fin.ext
  match a with
  | ⟨0, _⟩ => show win0_1.index t (0 : Fin 2) * 16384 + 1 * r.val = t.val * 16384 + r.val; rw [e0]; omega
  | ⟨1, _⟩ => show win0_1.index t (1 : Fin 2) * 128 + 1 * l.val = l.val; rw [e1]; omega

end Cert.KernelIdeal.Blocks

end
-- ==== Proof.Spec.lean ====
/-
  The specification both programs are read against, over plain functions of the flat index.

  The inputs are a vector `P` of 8388608 extended reals (the predictions) and a vector `T` of 8388608 32-bit labels.
  `pick k P T` keeps the entries of `P` whose label is `k` and puts `0` elsewhere; the two class sums are the sums of
  `pick 1 P T` (the fake class) and `pick 0 P T` (the real class). `loss fake real` is the scalar
  `max-with-zero` of `1 - fake / 2^22 + real / 2^22`, spelled with the vector operations on the rank-0 shape so that
  both programs' last lines are this term.

  The kernel sees the flat vector as 65536 rows of 128 lanes, cut into four blocks of 16384 rows; core `c` owns blocks
  `2c` and `2c + 1`. `flat c i r l` is the flat position of lane `l` of row `r` of block `2c + i`:
  `((2c + i) * 16384 + r) * 128 + l`.
-/
import Idealize.ShloMosaic.PureOps.Ideal
import Idealize.ShloMosaic.PureOps.Ideal.Laws
import Idealize.ShloMosaic.Lib.ValueIdx

noncomputable section

open scoped BigOperators

namespace Cert.Spec

open Idealize.ShloMosaic Idealize.ShloMosaic.ValueIdx

/-- The flat shape of both inputs. -/
abbrev SN : Shape := ⟨1, ![8388608]⟩
/-- The shape of a scalar. -/
abbrev S0 : Shape := ⟨0, ![]⟩

/-- The entries of `P` carrying the label `k`, zero elsewhere. -/
def pick (k : BitVec 32) (P : SN.Idx → EReal) (T : SN.Idx → BitVec 32) (j : SN.Idx) : EReal :=
  if T j = k then P j else 0

/-- `1 - fake / 2^22 + real / 2^22` as the programs compute it (`0x4A800000` is `2^22 = 4194304`, half the batch;
    `0x3F800000` is `1`). -/
def lossRaw (fake real : FVec Ideal S0 .f32) : FVec Ideal S0 .f32 :=
  addf (subf (constant (F := Ideal) S0 .f32 0x3F800000#32) (Host.divf (F := Ideal) fake (constant (F := Ideal) S0 .f32 0x4A800000#32)))
    (Host.divf (F := Ideal) real (constant (F := Ideal) S0 .f32 0x4A800000#32))

/-- The loss: `lossRaw` where it is positive, zero elsewhere. -/
def loss (fake real : FVec Ideal S0 .f32) : FVec Ideal S0 .f32 :=
  select (cmpf .ogt (lossRaw fake real) (constant (F := Ideal) S0 .f32 0x00000000#32)) (lossRaw fake real)
    (constant (F := Ideal) S0 .f32 0x00000000#32)

/-- The flat position of lane `l` of row `r` of block `2c + i`. -/
def flat (c : Fin 2) (i : Fin 2) (r : Fin 16384) (l : Fin 128) : SN.Idx :=
  ix1 ⟨((2 * c.val + i.val) * 16384 + r.val) * 128 + l.val, by
    have := c.isLt; have := i.isLt; have := r.isLt; have := l.isLt; omega⟩

theorem flat_val (c : Fin 2) (i : Fin 2) (r : Fin 16384) (l : Fin 128) :
    (flat c i r l 0).val = ((2 * c.val + i.val) * 16384 + r.val) * 128 + l.val := rfl

end Cert.Spec

end
-- ==== Proof.KernelHost.lean ====
/-
  The host operations of the kernel's program around its region.

  Before the region the program reshapes the two flat inputs, of 8388608 entries each, into 65536 rows of 128 lanes:
  entry `(a, b)` of the reshaped array is entry `a * 128 + b` of the flat one (both are read in row-major order).

  After the region the program holds two arrays of shape `[2, 1, 128]`. It sums each to a scalar, `total` from the
  first and `fake` from the second, takes `real = total - fake`, and then computes
  `l = (1 - fake / 2^22) + real / 2^22` and the result `if l > 0 then l else 0`: the specification's `loss` at
  `(fake, real)`.
-/
import proofs.«171308_j62929860821443_2_alg».proof.Proof.Gen.KernelIdeal.Frame
import proofs.«171308_j62929860821443_2_alg».proof.Proof.Spec
import Idealize.ShloMosaic.Lib.Pipeline.Value
import Idealize.ShloMosaic.Lib.StableHlo.Run
import Idealize.ShloMosaic.Lib.ValueIdx
import Idealize.ShloMosaic.Lib.Tactic

noncomputable section

namespace Cert.KernelIdeal.Host

open Cert.KernelIdeal Cert.KernelIdeal.Gen
open Idealize.ShloMosaic Idealize.ShloMosaic.TcCoe Idealize.SL.Sem

/-! ## Before the region: the two reshapes -/

section AnyValues
variable {F : FTy → Type} [FloatOps F] (m : (ℓ : Loc nD τ sig) → Buf (Elt F) ℓ)

/-- When the region is entered the first reshaped array is the reshape of the launch's predictions: the first of the
    two operations before the region writes it and the second writes another buffer. -/
theorem V_main_v0 (c : Dev nD) :
    (V m c main_v0 : S65536x128.Idx → Elt F .f32)
      = shapeCast S65536x128 (m ((c : Thread nD τ).loc main_arg0)) Gen.shapeCasts_S8388608_S65536x128 := by
  show StableHlo.after hostOps0 (fun b => m (c, b)) (Proc.devRef .tc main_v0) = _
  after_results
  rfl

/-- Likewise the second reshaped array is the reshape of the launch's labels. -/
theorem V_main_v1 (c : Dev nD) :
    (V m c main_v1 : S65536x128.Idx → Elt F .i32)
      = shapeCast S65536x128 (m ((c : Thread nD τ).loc main_arg1)) Gen.shapeCasts_S8388608_S65536x128 := by
  show StableHlo.after hostOps0 (fun b => m (c, b)) (Proc.devRef .tc main_v1) = _
  after_results
  rfl

end AnyValues

/-- The reshape read at row `a`, lane `b`: the flat array at `a * 128 + b`. A reshape keeps the row-major
    position; that of `(a, b)` among 65536 rows of 128 is `a * 128 + b`, and that of a flat index is itself. -/
theorem reshape_apply {α : Type} (P : S8388608.Idx → α) (a : Fin 65536) (b : Fin 128) :
    shapeCast S65536x128 P Gen.shapeCasts_S8388608_S65536x128 (ValueIdx.ix2 a b)
      = P (ValueIdx.ix1 ⟨a.val * 128 + b.val, by have := a.isLt; have := b.isLt; omega⟩) := by
  refine shapeCast_apply P _ (ValueIdx.ix2 a b) (ValueIdx.ix1 ⟨a.val * 128 + b.val, _⟩) ?_
  rw [Shape.rowMajor_val_one, Shape.rowMajor_val_two]
  show a.val * 128 + b.val = a.val * 128 + b.val
  rfl

/-! ## After the region: the two sums and the loss -/

/-- The sixteen operations after the region, run from ANY contents `W` of the buffers: the result is the loss of
    `fake`, the sum of the second `[2, 1, 128]` array, and `real = total - fake`, with `total` the sum of the
    first. Each operation's result is read at its own buffer; what is left is the specification's term, the same
    operations applied to the two sums. -/
theorem tail_of (W : Valuation τ sig (Elt Ideal)) :
    StableHlo.after (List.flatten [hostOps1, hostOps1_1]) W (Proc.devRef .tc main_v11)
      = Cert.Spec.loss
          (Host.reduceAdd (F := Ideal) (W (Proc.devRef .tc main_v2_1) : S2x1x128.Idx → EReal) (constant (F := Ideal) S_ .f32 0x00000000#32) Gen.reducesTo_S2x1x128_S_d0_1_2 Gen.h_S_)
          (subf (Host.reduceAdd (F := Ideal) (W (Proc.devRef .tc main_v2_0) : S2x1x128.Idx → EReal) (constant (F := Ideal) S_ .f32 0x00000000#32) Gen.reducesTo_S2x1x128_S_d0_1_2 Gen.h_S_)
                (Host.reduceAdd (F := Ideal) (W (Proc.devRef .tc main_v2_1) : S2x1x128.Idx → EReal) (constant (F := Ideal) S_ .f32 0x00000000#32) Gen.reducesTo_S2x1x128_S_d0_1_2 Gen.h_S_)) := by
  simp only [List.flatten_cons, List.flatten_nil, List.append_nil, List.cons_append, List.nil_append]
  after_results
  generalize Host.reduceAdd (F := Ideal) (W (Proc.devRef .tc main_v2_1) : S2x1x128.Idx → EReal) (constant (F := Ideal) S_ .f32 0x00000000#32) Gen.reducesTo_S2x1x128_S_d0_1_2 Gen.h_S_ = fake
  generalize Host.reduceAdd (F := Ideal) (W (Proc.devRef .tc main_v2_0) : S2x1x128.Idx → EReal) (constant (F := Ideal) S_ .f32 0x00000000#32) Gen.reducesTo_S2x1x128_S_d0_1_2 Gen.h_S_ = total
  rfl

/-- THE HOST TAIL: what the program's result buffer holds at the end is the loss of `fake` and `total - fake`,
    the sums of the region's two output arrays as the region leaves them. The contents the operations after the
    region start from are the region's arrays over the region-entry contents; read at an output array's buffer they
    are that array. -/
theorem tail_eq (m : (ℓ : Loc nD τ sig) → Buf (Elt Ideal) ℓ) (c : Dev nD) :
    Pipeline.afterTail₀ cfgs (dats m) 0 (V0 m) [hostOps1, hostOps1_1] c main_v11
      = Cert.Spec.loss (Host.reduceAdd (F := Ideal) ((dats m 0 c).arrAt 3 cfg0.N) (constant (F := Ideal) S_ .f32 0x00000000#32) Gen.reducesTo_S2x1x128_S_d0_1_2 Gen.h_S_)
          (subf (Host.reduceAdd (F := Ideal) ((dats m 0 c).arrAt 2 cfg0.N) (constant (F := Ideal) S_ .f32 0x00000000#32) Gen.reducesTo_S2x1x128_S_d0_1_2 Gen.h_S_)
                (Host.reduceAdd (F := Ideal) ((dats m 0 c).arrAt 3 cfg0.N) (constant (F := Ideal) S_ .f32 0x00000000#32) Gen.reducesTo_S2x1x128_S_d0_1_2 Gen.h_S_)) := by
  unfold Pipeline.afterTail₀
  rw [tail_of]
  -- the first output array's buffer holds the region's third array, the second output array's buffer its fourth
  have h2 : Pipeline.withArrays (cfgs 0).spec c (V0 m c) (fun w => (dats m 0 c).arrAt w (cfgs 0).N) (Proc.devRef .tc main_v2_0)
      = (dats m 0 c).arrAt 2 cfg0.N :=
    Pipeline.withArrays_arr spec0 launch0.win.arr_inj c _ _ 2
  have h3 : Pipeline.withArrays (cfgs 0).spec c (V0 m c) (fun w => (dats m 0 c).arrAt w (cfgs 0).N) (Proc.devRef .tc main_v2_1)
      = (dats m 0 c).arrAt 3 cfg0.N :=
    Pipeline.withArrays_arr spec0 launch0.win.arr_inj c _ _ 3
  rw [h2, h3]

end Cert.KernelIdeal.Host

end
-- ==== Proof.Sums.lean ====
/-
  Two facts about finite sums of extended reals over the flat index set of 8388608 positions.

  * The flat vector is 65536 rows of 128 lanes; the rows are cut into four blocks of 16384 rows, and the four blocks are
    two per core. Since addition of extended reals is commutative and associative (with ⊤ + ⊥ = ⊥, so no finiteness is
    needed), summing in the order "core, lane, block of the core, row of the block" gives the sum over all positions.
    The proof is three applications of one re-indexing: a sum over n < a * b is the double sum over x < a and y < b of the
    term at y + b * x.

  * When every entry is a real number and every label is 0 or 1, each entry is counted exactly once in "entries labelled
    1" plus "entries labelled 0", so the sum over label 0 is the total minus the sum over label 1. The subtraction is
    safe because all three sums are real numbers.

  A third, small fact: a sum over the index set 2 × 1 × 128 is the double sum over its first and last coordinates.
-/
import proofs.«171308_j62929860821443_2_alg».proof.Proof.Spec
import Idealize.ShloMosaic.Lib.ValueIdx

noncomputable section

open scoped BigOperators

namespace Cert.Sums

open Idealize.ShloMosaic Idealize.ShloMosaic.ValueIdx
open Cert.Spec

/-- Every n < a * b is y + b * x for exactly one pair x < a, y < b (quotient and remainder by b), so a sum over
    n < a * b of a term depending on the number n is the double sum over x and y of the term at y + b * x. The product is
    passed as an equation N = a * b so that N may be a literal. -/
theorem sum_fin_mul {M : Type*} [AddCommMonoid M] {N : ℕ} (a b : ℕ) (h : N = a * b) (g : ℕ → M) :
    ∑ n : Fin N, g n.val = ∑ x : Fin a, ∑ y : Fin b, g (y.val + b * x.val) := by
  subst h
  rw [← Equiv.sum_comp (finProdFinEquiv (m := a) (n := b)) (fun n => g n.val), Fintype.sum_prod_type]
  rfl

/-- A flat index is its one coordinate, so a sum over the flat index set is the sum over the coordinate. -/
def idxEquiv1 {n : ℕ} : (⟨1, ![n]⟩ : Shape).Idx ≃ Fin n where
  toFun j := j 0
  invFun a := ix1 a
  left_inv j := (eq_ix1 j).symm
  right_inv _ := rfl

theorem sum_idx1 {M : Type*} [AddCommMonoid M] {n : ℕ} (f : (⟨1, ![n]⟩ : Shape).Idx → M) :
    ∑ j, f j = ∑ a : Fin n, f (ix1 a) := by
  rw [← Equiv.sum_comp (idxEquiv1 (n := n)).symm f]
  rfl

/-- The four blocks of 16384 rows by 128 lanes, two per core, are the whole flat vector: summing each lane of each core's two blocks and then over lanes and cores is summing everything. -/
theorem sum_blocks (f : SN.Idx → EReal) :
    ∑ c : Fin 2, ∑ l : Fin 128, ((∑ r : Fin 16384, f (flat c 0 r l)) + ∑ r : Fin 16384, f (flat c 1 r l)) = ∑ j, f j := by
  -- g n is the entry at flat position n (and 0 for n outside the vector, which never occurs below).
  let g : ℕ → EReal := fun n => if h : n < 8388608 then f (ix1 ⟨n, h⟩) else 0
  -- The entry at lane l of row r of block 2c + i is g at l + 128 * (r + 16384 * (i + 2 * c)).
  have hflat : ∀ (c i : Fin 2) (r : Fin 16384) (l : Fin 128),
      f (flat c i r l) = g (l.val + 128 * (r.val + 16384 * (i.val + 2 * c.val))) := by
    intro c i r l
    have hlt : l.val + 128 * (r.val + 16384 * (i.val + 2 * c.val)) < 8388608 := by
      have := c.isLt; have := i.isLt; have := r.isLt; have := l.isLt; omega
    show f (flat c i r l) = if h : _ < 8388608 then f (ix1 ⟨_, h⟩) else 0
    rw [dif_pos hlt]
    congr 1
    rw [eq_ix1 (flat c i r l)]
    congr 1
    apply Fin.ext
    rw [flat_val]
    show _ = l.val + 128 * (r.val + 16384 * (i.val + 2 * c.val))
    ring
  -- Right side: all positions = rows by lanes = blocks by rows by lanes = cores by two blocks by rows by lanes.
  have hR : ∑ j, f j
      = ∑ c : Fin 2, ∑ i : Fin 2, ∑ r : Fin 16384, ∑ l : Fin 128,
          g (l.val + 128 * (r.val + 16384 * (i.val + 2 * c.val))) := by
    rw [sum_idx1 f]
    have h0 : ∀ n : Fin 8388608, f (ix1 n) = g n.val := by
      intro n
      show f (ix1 n) = if h : n.val < 8388608 then f (ix1 ⟨n.val, h⟩) else 0
      rw [dif_pos n.isLt]
    rw [Finset.sum_congr rfl (fun n _ => h0 n)]
    rw [sum_fin_mul 65536 128 (by norm_num) g]
    rw [sum_fin_mul 4 16384 (by norm_num) (fun R => ∑ l : Fin 128, g (l.val + 128 * R))]
    rw [sum_fin_mul 2 2 (by norm_num)
      (fun B => ∑ r : Fin 16384, ∑ l : Fin 128, g (l.val + 128 * (r.val + 16384 * B)))]
  rw [hR]
  -- Left side: the two blocks of a core are the sum over i = 0, 1; then move the lane sum innermost.
  refine Finset.sum_congr rfl (fun c _ => ?_)
  rw [Fin.sum_univ_two]
  rw [Finset.sum_comm (f := fun (r : Fin 16384) (l : Fin 128) => g (l.val + 128 * (r.val + 16384 * ((0 : Fin 2).val + 2 * c.val))))]
  rw [Finset.sum_comm (f := fun (r : Fin 16384) (l : Fin 128) => g (l.val + 128 * (r.val + 16384 * ((1 : Fin 2).val + 2 * c.val))))]
  rw [← Finset.sum_add_distrib]
  refine Finset.sum_congr rfl (fun l _ => ?_)
  rw [Finset.sum_congr rfl (fun r _ => hflat c 0 r l), Finset.sum_congr rfl (fun r _ => hflat c 1 r l)]

/-- The coercion of a finite sum of reals is the sum of the coercions: induction on the index set, by
    ↑0 = 0 and ↑(x + y) = ↑x + ↑y. -/
theorem coe_sum {ι : Type*} (s : Finset ι) (p : ι → ℝ) :
    ((∑ j ∈ s, p j : ℝ) : EReal) = ∑ j ∈ s, (p j : EReal) := by
  classical
  induction s using Finset.induction_on with
  | empty => rw [Finset.sum_empty, Finset.sum_empty, EReal.coe_zero]
  | insert a s ha ih => rw [Finset.sum_insert ha, Finset.sum_insert ha, EReal.coe_add, ih]

/-- With every entry a real number and every label 0 or 1, the entries labelled 0 sum to the total minus the sum of the entries labelled 1. -/
theorem real_eq_total_sub_fake (P : SN.Idx → EReal) (T : SN.Idx → BitVec 32)
    (hP : ∀ j, ∃ r : ℝ, P j = (r : EReal)) (hT : ∀ j, T j = 0#32 ∨ T j = 1#32) :
    (∑ j, P j) - (∑ j, pick 1#32 P T j) = ∑ j, pick 0#32 P T j := by
  -- p j is the real number that P j is.
  choose p hp using hP
  -- The entries of P labelled k are the coercions of the entries of p labelled k.
  have hpick : ∀ (k : BitVec 32) (j : SN.Idx),
      pick k P T j = ((if T j = k then p j else 0 : ℝ) : EReal) := by
    intro k j
    unfold pick
    rw [hp j]
    split
    · rfl
    · exact EReal.coe_zero.symm
  -- So all three sums are coercions of real sums.
  rw [Finset.sum_congr rfl (fun j _ => hp j), Finset.sum_congr rfl (fun j _ => hpick 1#32 j),
    Finset.sum_congr rfl (fun j _ => hpick 0#32 j)]
  rw [← coe_sum, ← coe_sum, ← coe_sum, ← EReal.coe_sub]
  refine congrArg Real.toEReal ?_
  -- In the reals: each p j is (p j if labelled 0) + (p j if labelled 1), since the label is exactly one of 0, 1.
  apply sub_eq_of_eq_add
  rw [← Finset.sum_add_distrib]
  refine Finset.sum_congr rfl (fun j _ => ?_)
  have h01 : (0#32 : BitVec 32) ≠ 1#32 := by decide
  rcases hT j with h | h
  · rw [h, if_pos rfl, if_neg h01, add_zero]
  · rw [h, if_neg (Ne.symm h01), if_pos rfl, zero_add]

/-- A rank-3 index is the triple of its coordinates. -/
def idxEquiv3 {n0 n1 n2 : ℕ} : (⟨3, ![n0, n1, n2]⟩ : Shape).Idx ≃ Fin n0 × Fin n1 × Fin n2 where
  toFun i := (i 0, i 1, i 2)
  invFun q := ix3 q.1 q.2.1 q.2.2
  left_inv i := (eq_ix3 i).symm
  right_inv _ := rfl

/-- So a sum over a rank-3 index set is the triple sum over the coordinates. -/
theorem sum_idx3 {M : Type*} [AddCommMonoid M] {n0 n1 n2 : ℕ} (f : (⟨3, ![n0, n1, n2]⟩ : Shape).Idx → M) :
    ∑ i, f i = ∑ a : Fin n0, ∑ b : Fin n1, ∑ c : Fin n2, f (ix3 a b c) := by
  rw [← Equiv.sum_comp (idxEquiv3 (n0 := n0) (n1 := n1) (n2 := n2)).symm f, Fintype.sum_prod_type]
  refine Finset.sum_congr rfl (fun a _ => ?_)
  rw [Fintype.sum_prod_type]
  rfl

/-- Over the index set 2 × 1 × 128 the middle coordinate is always 0, so the sum is the double sum over the first and
    last coordinates. -/
theorem sum_lanes {M : Type*} [AddCommMonoid M] (g : (⟨3, ![2, 1, 128]⟩ : Shape).Idx → M) :
    ∑ i, g i = ∑ k : Fin 2, ∑ l : Fin 128, g (ix3 k 0 l) := by
  rw [sum_idx3 g]
  refine Finset.sum_congr rfl (fun k _ => ?_)
  rw [Fin.sum_univ_one]

end Cert.Sums

end
-- ==== Proof.KernelValue.lean ====
/-
  The kernel's result as the specification's loss of the two class sums.

  Core `k`'s last point leaves in lane `l` of its block of the first output array the sum, over the core's two input
  blocks `2k` and `2k + 1`, of lane `l` of every row of the block — the even block's sum first, onto the reset value
  `0` — and in the second output array the same sum restricted to the entries labelled `1`. Row `r` of block `2k + i`
  of the [65536,128] view is flat position `((2k + i) · 16384 + r) · 128 + l` of the input vector, so summing an output
  array over its 2 · 128 entries is summing the flat vector (or its entries labelled `1`) over all 8388608 positions:
  addition of extended reals is commutative and associative, so the regrouping needs no finiteness.

  After the region the program takes total = Σ (first array), fake = Σ (second array), real = total − fake, and
  applies the loss to (fake, real). The subtraction is where the hypotheses are used: with every prediction a real number
  and every label 0 or 1, total − fake is the sum of the entries labelled `0`.
-/
import proofs.«171308_j62929860821443_2_alg».proof.Proof.KernelArrays
import proofs.«171308_j62929860821443_2_alg».proof.Proof.KernelLanes
import proofs.«171308_j62929860821443_2_alg».proof.Proof.KernelBlocks
import proofs.«171308_j62929860821443_2_alg».proof.Proof.KernelHost
import proofs.«171308_j62929860821443_2_alg».proof.Proof.Sums
import proofs.«171308_j62929860821443_2_alg».proof.Proof.Spec
import Idealize.ShloMosaic.PureOps.Ideal.Laws

noncomputable section

open scoped BigOperators
open Idealize.ShloMosaic Idealize.ShloMosaic.TcCoe Idealize.SL.Sem Idealize.ShloMosaic.ValueIdx
open Idealize.ShloMosaic.Pipeline (Dat)

namespace Cert.KernelIdeal.Value2

open Cert.KernelIdeal Cert.KernelIdeal.Gen Cert.KernelIdeal.Arrays Cert.KernelIdeal.Lanes Cert.KernelIdeal.Blocks

variable (m : (ℓ : Loc nD τ sig) → Buf (Elt Ideal) ℓ)

open Cert.Spec

/-- The [65536,128] arrays of predictions and labels as the region finds them. -/
abbrev P2 (c : Dev nD) : S65536x128.Idx → EReal := V m c main_v0
abbrev T2 (c : Dev nD) : S65536x128.Idx → BitVec 32 := V m c main_v1

theorem acc1_apply (c : Dev nD) (t : Fin cfg0.N) (hodd : t.val % 2 = 1) (l : Fin 128) :
    (accAt m c t.val).1 (ix3 0 0 l)
      = (∑ r : Fin 16384, P2 m c (ix2 (rowOf (prev t) r) l)) + ∑ r : Fin 16384, P2 m c (ix2 (rowOf t r) l) := by
  unfold accAt
  rw [dif_pos t.isLt, outsAt_odd m c t hodd]
  dsimp only
  refine (pay4_apply (iblk m c 0 t) (k0_pay4 (iblk m c 0 (prev t)) (k0_pay1 (F := Ideal))) l).trans ?_
  refine congrArg₂ (· + ·) ((pay4_apply (iblk m c 0 (prev t)) (k0_pay1 (F := Ideal)) l).trans ?_)
    (Finset.sum_congr rfl fun r _ => iblk0_apply m c t r l)
  rw [pay1_apply, zero_add]
  exact Finset.sum_congr rfl fun r _ => iblk0_apply m c (prev t) r l

theorem acc2_apply (c : Dev nD) (t : Fin cfg0.N) (hodd : t.val % 2 = 1) (l : Fin 128) :
    (accAt m c t.val).2 (ix3 0 0 l)
      = (∑ r : Fin 16384, (if T2 m c (ix2 (rowOf (prev t) r) l) = 1#32 then P2 m c (ix2 (rowOf (prev t) r) l) else 0))
        + ∑ r : Fin 16384, (if T2 m c (ix2 (rowOf t r) l) = 1#32 then P2 m c (ix2 (rowOf t r) l) else 0) := by
  unfold accAt
  rw [dif_pos t.isLt, outsAt_odd m c t hodd]
  dsimp only
  refine (pay5_apply (iblk m c 0 t) (iblk m c 1 t) (k0_pay5 (iblk m c 0 (prev t)) (iblk m c 1 (prev t)) (k0_pay2 (F := Ideal))) l).trans ?_
  refine congrArg₂ (· + ·) ((pay5_apply (iblk m c 0 (prev t)) (iblk m c 1 (prev t)) (k0_pay2 (F := Ideal)) l).trans ?_)
    (Finset.sum_congr rfl fun r _ => by rw [iblk0_apply m c t r l, iblk1_apply m c t r l])
  rw [pay2_apply, zero_add]
  exact Finset.sum_congr rfl fun r _ => by rw [iblk0_apply m c (prev t) r l, iblk1_apply m c (prev t) r l]

/-- The flat inputs on core `c`. -/
abbrev P (c : Dev nD) : SN.Idx → EReal := m ((c : Thread nD τ).loc main_arg0)
abbrev T (c : Dev nD) : SN.Idx → BitVec 32 := m ((c : Thread nD τ).loc main_arg1)

/-- The [65536,128] view at row `a`, lane `b` is the flat vector at `a · 128 + b`. -/
theorem P2_apply (c : Dev nD) (a : Fin 65536) (b : Fin 128) :
    P2 m c (ix2 a b) = P m c (ix1 ⟨a.val * 128 + b.val, by have := a.isLt; have := b.isLt; omega⟩) := by
  show (V m c main_v0 : S65536x128.Idx → Elt Ideal .f32) (ix2 a b) = _
  rw [Host.V_main_v0 m c]
  exact Host.reshape_apply _ a b
theorem T2_apply (c : Dev nD) (a : Fin 65536) (b : Fin 128) :
    T2 m c (ix2 a b) = T m c (ix1 ⟨a.val * 128 + b.val, by have := a.isLt; have := b.isLt; omega⟩) := by
  show (V m c main_v1 : S65536x128.Idx → Elt Ideal .i32) (ix2 a b) = _
  rw [Host.V_main_v1 m c]
  exact Host.reshape_apply _ a b

/-- Row `r`, lane `l` of the block staged at point `t = 2k + i` is the flat position `flat k i r l`. -/
theorem P2_row (c : Dev nD) (t : Fin cfg0.N) (k i : Fin 2) (ht : t.val = 2 * k.val + i.val) (r : Fin 16384) (l : Fin 128) :
    P2 m c (ix2 (rowOf t r) l) = P m c (flat k i r l) := by
  rw [P2_apply]
  refine congrArg (P m c) (congrArg ix1 (Fin.ext ?_))
  show (t.val * 16384 + r.val) * 128 + l.val = ((2 * k.val + i.val) * 16384 + r.val) * 128 + l.val
  rw [ht]
theorem T2_row (c : Dev nD) (t : Fin cfg0.N) (k i : Fin 2) (ht : t.val = 2 * k.val + i.val) (r : Fin 16384) (l : Fin 128) :
    T2 m c (ix2 (rowOf t r) l) = T m c (flat k i r l) := by
  rw [T2_apply]
  refine congrArg (T m c) (congrArg ix1 (Fin.ext ?_))
  show (t.val * 16384 + r.val) * 128 + l.val = ((2 * k.val + i.val) * 16384 + r.val) * 128 + l.val
  rw [ht]

/-- The two output arrays, as functions of the index. -/
abbrev A2 (c : Dev nD) : S2x1x128.Idx → EReal := G2 m c
abbrev A3 (c : Dev nD) : S2x1x128.Idx → EReal := G3 m c

theorem lastPt_odd (k : Fin 2) : (lastPt k.val k.isLt).val % 2 = 1 := by
  show (2 * k.val + 1) % 2 = 1; omega
theorem prev_lastPt (k : Fin 2) : (prev (lastPt k.val k.isLt)).val = 2 * k.val + (0 : Fin 2).val := by
  show 2 * k.val + 1 - 1 = 2 * k.val + 0; omega
theorem lastPt_val (k : Fin 2) : (lastPt k.val k.isLt).val = 2 * k.val + (1 : Fin 2).val := rfl

/-- The first output array at `(k, 0, l)`: lane `l` summed over the rows of core `k`'s two blocks. -/
theorem A2_flat (c : Dev nD) (k : Fin 2) (l : Fin 128) :
    A2 m c (ix3 k 0 l) = (∑ r : Fin 16384, P m c (flat k 0 r l)) + ∑ r : Fin 16384, P m c (flat k 1 r l) := by
  refine (acc1_apply m c (lastPt k.val k.isLt) (lastPt_odd k) l).trans ?_
  exact congrArg₂ (· + ·)
    (Finset.sum_congr rfl fun r _ => P2_row m c (prev (lastPt k.val k.isLt)) k 0 (prev_lastPt k) r l)
    (Finset.sum_congr rfl fun r _ => P2_row m c (lastPt k.val k.isLt) k 1 (lastPt_val k) r l)

/-- The second output array at `(k, 0, l)`: the same sum over the entries labelled `1`. -/
theorem A3_flat (c : Dev nD) (k : Fin 2) (l : Fin 128) :
    A3 m c (ix3 k 0 l) = (∑ r : Fin 16384, pick 1#32 (P m c) (T m c) (flat k 0 r l))
      + ∑ r : Fin 16384, pick 1#32 (P m c) (T m c) (flat k 1 r l) := by
  refine (acc2_apply m c (lastPt k.val k.isLt) (lastPt_odd k) l).trans ?_
  refine congrArg₂ (· + ·) (Finset.sum_congr rfl fun r _ => ?_) (Finset.sum_congr rfl fun r _ => ?_)
  · rw [P2_row m c (prev (lastPt k.val k.isLt)) k 0 (prev_lastPt k) r l,
      T2_row m c (prev (lastPt k.val k.isLt)) k 0 (prev_lastPt k) r l]
    rfl
  · rw [P2_row m c (lastPt k.val k.isLt) k 1 (lastPt_val k) r l, T2_row m c (lastPt k.val k.isLt) k 1 (lastPt_val k) r l]
    rfl

/-- Summing the first output array is summing every prediction. -/
theorem sum_A2 (c : Dev nD) : ∑ i, A2 m c i = ∑ j, P m c j := by
  rw [Cert.Sums.sum_lanes (A2 m c)]
  exact (Finset.sum_congr rfl fun k _ => Finset.sum_congr rfl fun l _ => A2_flat m c k l).trans
    (Cert.Sums.sum_blocks (P m c))

/-- Summing the second output array is summing the predictions labelled `1`. -/
theorem sum_A3 (c : Dev nD) : ∑ i, A3 m c i = ∑ j, pick 1#32 (P m c) (T m c) j := by
  rw [Cert.Sums.sum_lanes (A3 m c)]
  exact (Finset.sum_congr rfl fun k _ => Finset.sum_congr rfl fun l _ => A3_flat m c k l).trans
    (Cert.Sums.sum_blocks (pick 1#32 (P m c) (T m c)))

/-- The host's sum of a [2,1,128] array to a scalar from the initial value `0` is the sum of its entries. -/
theorem reduce_total (A : S2x1x128.Idx → EReal) :
    Host.reduceAdd (F := Ideal) A (constant (F := Ideal) S_ .f32 0x00000000#32) Gen.reducesTo_S2x1x128_S_d0_1_2 Gen.h_S_
      = fun _ => ∑ i, A i := by
  funext j
  simp only [Host.reduceAdd, Ideal.hostReduceAdd_def]
  refine (Ideal.hostReduceAdd_total Gen.reducesTo_S2x1x128_S_d0_1_2 (fun b => b.elim0) A _ j).trans ?_
  show Ideal.ofBits .f32 0x00000000#32 + _ = _
  rw [Ideal.ofBits_zero_f32, zero_add]

/-- The loss as the program's last lines compute it from the two output arrays: `fake` is the sum of the second,
    `real` the sum of the first minus `fake`. -/
def lossOfArrays (X3 X2 : S2x1x128.Idx → EReal) : FVec Ideal S_ .f32 :=
  Cert.Spec.loss
    (Host.reduceAdd (F := Ideal) X3 (constant (F := Ideal) S_ .f32 0x00000000#32) Gen.reducesTo_S2x1x128_S_d0_1_2 Gen.h_S_)
    (subf (Host.reduceAdd (F := Ideal) X2 (constant (F := Ideal) S_ .f32 0x00000000#32) Gen.reducesTo_S2x1x128_S_d0_1_2 Gen.h_S_)
      (Host.reduceAdd (F := Ideal) X3 (constant (F := Ideal) S_ .f32 0x00000000#32) Gen.reducesTo_S2x1x128_S_d0_1_2 Gen.h_S_))

/-- … is the loss of `f` and `tot − f` when the arrays sum to `f` and `tot`. -/
theorem lossOfArrays_eq (X3 X2 : S2x1x128.Idx → EReal) (f tot : EReal) (h3 : ∑ i, X3 i = f) (h2 : ∑ i, X2 i = tot) :
    lossOfArrays X3 X2 = Cert.Spec.loss (fun _ => f) (fun _ => tot - f) := by
  unfold lossOfArrays
  rw [reduce_total X2, reduce_total X3, h2, h3]
  rfl

/-- THE KERNEL'S RESULT: with real predictions and labels in {0, 1}, the loss of the two class sums. -/
theorem result_eq (c : Dev nD) (hP : ∀ j, ∃ r : ℝ, P m c j = (r : EReal)) (hT : ∀ j, T m c j = 0#32 ∨ T m c j = 1#32) :
    Pipeline.afterTail₀ cfgs (dats m) 0 (V0 m) [hostOps1, hostOps1_1] c main_v11
      = Cert.Spec.loss (fun _ => ∑ j, pick 1#32 (P m c) (T m c) j) (fun _ => ∑ j, pick 0#32 (P m c) (T m c) j) := by
  have e1 : Pipeline.afterTail₀ cfgs (dats m) 0 (V0 m) [hostOps1, hostOps1_1] c main_v11
      = lossOfArrays ((dats m 0 c).arrAt 3 cfg0.N) ((dats m 0 c).arrAt 2 cfg0.N) := Host.tail_eq m c
  refine e1.trans ((congrArg₂ lossOfArrays (final3 m c) (final2 m c)).trans ?_)
  refine (lossOfArrays_eq (A3 m c) (A2 m c) _ _ (sum_A3 m c) (sum_A2 m c)).trans ?_
  refine congrArg (Cert.Spec.loss _) ?_
  funext j
  exact Cert.Sums.real_eq_total_sub_fake (P m c) (T m c) hP hT

end Cert.KernelIdeal.Value2

end
-- ==== Proof.RefSide.lean ====
/-
  The reference program read as the specification's loss of the two class sums.

  The reference computes, over the flat index `j` of the 8388608 predictions `P` and labels `T`,
    real = 0 + ∑ j, (if T j = 0 then P j else 0),
    fake = 0 + ∑ j, (if T j = 1 then P j else 0),
  and then `l = (1 - fake / 2^22) + real / 2^22` and the result `if l > 0 then l else 0`. The two sums are the
  specification's class sums `∑ j, pick 0 P T j` and `∑ j, pick 1 P T j` (the initial value is the extended real
  `0`, which a sum absorbs), and the last lines are, operation by operation, the specification's `loss`.
-/
import proofs.«171308_j62929860821443_2_alg».proof.Proof.Spec
import proofs.«171308_j62929860821443_2_alg».proof.Proof.Gen.ReferenceIdeal.Read
import Idealize.ShloMosaic.Lib.ValueIdx
import Idealize.ShloMosaic.PureOps.Ideal.Laws
import Idealize.ShloMosaic.Lib.Pipeline.Value

noncomputable section

open scoped BigOperators

namespace Cert.RefSide

open Idealize.ShloMosaic Idealize.ShloMosaic.ValueIdx Cert.ReferenceIdeal Cert.ReferenceIdeal.Read Cert.Spec

/-- A select whose condition is the equality test of two words is the `if` on their equality: the test's bit is
    `1` exactly when the words are equal, and a bit that is not `1` is `0`. -/
theorem select_cmpi_eq {α : Type} (a b : BitVec 32) (x y : α) :
    Scalar.select (IntOp.cmpi .eq a b) x y = if a = b then x else y := by
  by_cases h : a = b
  · rw [if_pos h, IntOp.cmpi_eq.mpr h, select_one]
  · rw [if_neg h, eq_zero_of_ne_one (fun h1 => h (IntOp.cmpi_eq.mp h1)), select_zero]

/-- The real class's summand: `select (T j == 0) (P j) 0` is `pick 0 P T j`. The compared constant is the
    broadcast of the scalar word `0`, the alternative the broadcast of the float word of `0.0`, which is the
    extended real `0`. -/
theorem v2_apply (P : SN.Idx → EReal) (T : SN.Idx → BitVec 32) (j : SN.Idx) :
    val_main_v2 (F := Ideal) P T j = pick 0#32 P T j := by
  rw [val_main_v2_apply, val_main_v1_apply, val_main_v0_apply, val_main_c_apply, val_main_call0_v1_apply,
    val_main_call0_v0_apply, val_main_cst_apply, select_cmpi_eq]
  show (if T j = 0#32 then P j else Ideal.ofBits .f32 0x00000000#32) = _
  rw [Ideal.ofBits_zero_f32]
  rfl

/-- The fake class's summand: `select (T j == 1) (P j) 0` is `pick 1 P T j`. -/
theorem v6_apply (P : SN.Idx → EReal) (T : SN.Idx → BitVec 32) (j : SN.Idx) :
    val_main_v6 (F := Ideal) P T j = pick 1#32 P T j := by
  rw [val_main_v6_apply, val_main_v5_apply, val_main_v4_apply, val_main_c_1_apply, val_main_call1_v1_apply,
    val_main_call1_v0_apply, val_main_cst_2_apply, select_cmpi_eq]
  show (if T j = 1#32 then P j else Ideal.ofBits .f32 0x00000000#32) = _
  rw [Ideal.ofBits_zero_f32]
  rfl

/-- The reference's real-class sum: `0 + ∑ j, pick 0 P T j`, the leading `0` dropped. -/
theorem real_eq (P : SN.Idx → EReal) (T : SN.Idx → BitVec 32) :
    val_main_v3 (F := Ideal) P T = fun _ => ∑ j, pick 0#32 P T j := by
  funext i
  rw [val_main_v3_apply, val_main_cst_0_apply]
  show Ideal.ofBits .f32 0x00000000#32 + _ = _
  rw [Ideal.ofBits_zero_f32, zero_add]
  exact Finset.sum_congr rfl fun j _ => v2_apply P T j

/-- The reference's fake-class sum: `0 + ∑ j, pick 1 P T j`, the leading `0` dropped. -/
theorem fake_eq (P : SN.Idx → EReal) (T : SN.Idx → BitVec 32) :
    val_main_v7 (F := Ideal) P T = fun _ => ∑ j, pick 1#32 P T j := by
  funext i
  rw [val_main_v7_apply, val_main_cst_3_apply]
  show Ideal.ofBits .f32 0x00000000#32 + _ = _
  rw [Ideal.ofBits_zero_f32, zero_add]
  exact Finset.sum_congr rfl fun j _ => v6_apply P T j

/-- The reference's last lines are the specification's `loss` of its two sums, operation by operation: the
    quotient of the fake sum by `2^22` subtracted from `1`, the quotient of the real sum by `2^22` added, and
    the select on "greater than zero" against zero. -/
theorem v13_eq_loss (P : SN.Idx → EReal) (T : SN.Idx → BitVec 32) :
    val_main_v13 (F := Ideal) P T = loss (val_main_v7 (F := Ideal) P T) (val_main_v3 (F := Ideal) P T) := rfl

/-- THE REFERENCE is the loss of the two class sums. -/
theorem ref_eq (P : Cert.Spec.SN.Idx → EReal) (T : Cert.Spec.SN.Idx → BitVec 32) :
    Cert.ReferenceIdeal.Read.val_main_v13 (F := Ideal) P T
      = Cert.Spec.loss (fun _ => ∑ j, Cert.Spec.pick 1#32 P T j) (fun _ => ∑ j, Cert.Spec.pick 0#32 P T j) := by
  rw [v13_eq_loss, fake_eq, real_eq]

end Cert.RefSide

end
-- ==== Proof.PreDecode.lean ====
/-
  The precondition read back as facts about the inputs.

  The precondition is the conjunction of two "for all" tests over the flat index `j`:
    every `|P j| < +∞`, and every label `T j` equal to `0` or to `1`.
  Each "for all" is a reduction by `and` from the bit `1`, which is `1` only when every reduced bit is `1`. At the
  extended reals `|x|` is `max x (-x)`, and that is below `+∞` only at a real `x`: at `-∞` and at `+∞` it is
  `+∞`. The label test is the `or` of two equality tests, which is `1` only when one of the two equalities holds.
-/
import proofs.«171308_j62929860821443_2_alg».proof.Proof.Spec
import proofs.«171308_j62929860821443_2_alg».proof.Pre_finite_inputs
import Idealize.ShloMosaic.Lib.ReduceAll
import Idealize.ShloMosaic.Lib.ValueIdx
import Idealize.ShloMosaic.PureOps.Ideal.Laws

noncomputable section

namespace Cert.PreDecode

open Idealize.ShloMosaic Idealize.ShloMosaic.ValueIdx Cert.Spec

/-- The scalar shape has one index. -/
instance : Subsingleton Cert.Pre_finite_inputs.S_.Idx := ⟨fun a b => funext fun d => d.elim0⟩

/-- The float word `0x7F800000` (exponent all ones, fraction zero, sign clear) is `+∞`. -/
theorem ofBits_inf_f32 : Ideal.ofBits .f32 0x7F800000#32 = ⊤ := by simp [Ideal.ofBits, Ideal.ieee]

/-- An extended real whose absolute value `max x (-x)` is below `+∞` is a real: at `x = -∞` the maximum is
    `-(-∞) = +∞` and at `x = +∞` it is `+∞`, neither below `+∞`. -/
theorem real_of_abs_lt_top (x : EReal) (h : max x (-x) < ⊤) : ∃ r : ℝ, x = (r : EReal) := by
  induction x using EReal.rec with
  | bot => exact absurd h (by simp)
  | coe r => exact ⟨r, rfl⟩
  | top => exact absurd h (by simp)

/-- The comparison "less than" on extended reals has the bit `1` only when the first is below the second. -/
theorem lt_of_cmp_olt {x y : EReal} (h : Ideal.cmp .olt x y = 1#1) : x < y := by
  change BitVec.ofBool (decide (x < y)) = 1#1 at h
  by_contra hn
  rw [decide_eq_false hn] at h
  exact absurd h (by decide)

/-- THE PRECONDITION DECODED: every prediction is a real and every label is `0` or `1`. -/
theorem of_pre [Cert.Pre_finite_inputs.Facts] (P : Cert.Spec.SN.Idx → EReal) (T : Cert.Spec.SN.Idx → BitVec 32)
    (h : Cert.Pre_finite_inputs.fn (F := Ideal) P T = fun _ => 1#1) :
    (∀ j, ∃ r : ℝ, P j = (r : EReal)) ∧ (∀ j, T j = 0#32 ∨ T j = 1#32) := by
  have e := congrFun h ix0
  unfold Cert.Pre_finite_inputs.fn at e
  dsimp only at e
  -- the last operation is the `and` of the two tests: both are `1`
  obtain ⟨hP, hT⟩ := IntOp.andi_eq_one.mp e
  refine ⟨fun j => ?_, fun j => ?_⟩
  · -- the first "for all" is `1`, so the comparison `|P j| < +∞` is `1` at every `j`
    have hj := Host.reduce_andi_all _ _ _ _ _ hP j
    -- at the index `j` the comparison is of `max (P j) (-(P j))` with the word of `+∞`
    have hj' : Ideal.cmp .olt (max (P j) (-(P j))) (Ideal.ofBits .f32 0x7F800000#32) = 1#1 := hj
    rw [ofBits_inf_f32] at hj'
    exact real_of_abs_lt_top (P j) (lt_of_cmp_olt hj')
  · -- the second "for all" is `1`, so the `or` of the two equality tests is `1` at every `j`
    have hj := Host.reduce_andi_all _ _ _ _ _ hT j
    have hj' : IntOp.ori (IntOp.cmpi .eq (T j) 0#32) (IntOp.cmpi .eq (T j) 1#32) = 1#1 := hj
    rcases IntOp.ori_eq_one.mp hj' with h0 | h1
    · exact Or.inl (IntOp.cmpi_eq.mp h0)
    · exact Or.inr (IntOp.cmpi_eq.mp h1)

end Cert.PreDecode

end
-- ==== Proof.lean ====
/-
  The certificate: the kernel's masked-sum loss equals the reference's.

  Both programs compute, from 8388608 predictions `P` and labels `T`, the scalar
  `max-with-zero (1 − fake / 2^22 + real / 2^22)` where `fake` is the sum of the predictions labelled `1` and
  `real` the sum of those labelled `0`. The reference takes both sums directly over the flat vector. The kernel
  splits the vector into four blocks of 16384 rows by 128 lanes, two per core; each core accumulates over its two
  blocks one lane vector of plain sums and one of sums restricted to label `1`; after the region the program sums the
  lane vectors to `total` and `fake` and takes `real = total − fake`.

  The two agree under the stated precondition: every prediction is finite and every label is 0 or 1. The regrouping
  of the sums (rows, lanes, blocks, cores) holds in the extended reals without any hypothesis; the subtraction
  `total − fake = real` is where both hypotheses are used — finiteness so that the difference of sums is the sum of
  differences, and the labels' range so that "not labelled 1" means "labelled 0".

  The frames of the two kernel programs are the generated frame theorems; the reference's frame is its generated run
  with the result dropped; the idealization rewrote nothing, so `preserves` is `True`.
-/
import proofs.«171308_j62929860821443_2_alg».proof.Defs
import proofs.«171308_j62929860821443_2_alg».proof.Proof.Gen.Kernel
import proofs.«171308_j62929860821443_2_alg».proof.Proof.Gen.Kernel.Frame
import proofs.«171308_j62929860821443_2_alg».proof.Proof.Gen.KernelIdeal
import proofs.«171308_j62929860821443_2_alg».proof.Proof.Gen.KernelIdeal.Frame
import proofs.«171308_j62929860821443_2_alg».proof.Proof.Gen.ReferenceIdeal
import proofs.«171308_j62929860821443_2_alg».proof.Proof.Gen.Pre_finite_inputs
import proofs.«171308_j62929860821443_2_alg».proof.Proof.Gen.ReferenceIdeal.Run
import proofs.«171308_j62929860821443_2_alg».proof.Proof.Gen.ReferenceIdeal.Read
import proofs.«171308_j62929860821443_2_alg».proof.Proof.KernelValue
import proofs.«171308_j62929860821443_2_alg».proof.Proof.RefSide
import proofs.«171308_j62929860821443_2_alg».proof.Proof.PreDecode
import Idealize.ShloMosaic.Adequacy
import Idealize.ShloMosaic.Init

noncomputable section

open scoped BigOperators

namespace Cert.Proof

open Idealize.ShloMosaic Idealize.ShloMosaic.TcCoe Idealize.SL.Sem

/-- The word-level kernel runs and keeps its arguments: the generated frame. -/
theorem frame_k : Cert.frame_Kernel := fun m ρ _ => Cert.Kernel.Gen.frame m ρ

/-- The idealized kernel runs and keeps its arguments: the generated frame. -/
theorem frame_ki : Cert.frame_KernelIdeal := fun m ρ _ => Cert.KernelIdeal.Gen.frame m ρ

/-- The reference runs and keeps its arguments: its generated run, the result dropped. -/
theorem frame_ri : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- Both programs end at the specification's loss of the two class sums of the (agreeing) arguments. -/
theorem algebraic : Cert.algebraic_KernelIdeal_ReferenceIdeal := by
  intro m ρ m' ρ' hpre hagree
  have hdec := fun c : Dev Cert.KernelIdeal.nD =>
    Cert.PreDecode.of_pre (Cert.KernelIdeal.Value2.P m c) (Cert.KernelIdeal.Value2.T m c) (hpre c)
  refine ⟨fun c => Cert.Spec.loss
      (fun _ => ∑ j, Cert.Spec.pick 1#32 (Cert.KernelIdeal.Value2.P m c) (Cert.KernelIdeal.Value2.T m c) j)
      (fun _ => ∑ j, Cert.Spec.pick 0#32 (Cert.KernelIdeal.Value2.P m c) (Cert.KernelIdeal.Value2.T m c) j), ?_, ?_⟩
  · refine (θ_run Cert.KernelIdeal.defs _ _).mono (fun r h c => ⟨?_, ?_, ?_⟩) (Cert.KernelIdeal.Gen.run_main m ρ)
    · exact ((h c).2 Cert.KernelIdeal.main_v11 (Pipeline.mem_restRefs_of Cert.KernelIdeal.main_v11 (by decide) (by decide))).trans
        (Cert.KernelIdeal.Value2.result_eq m c (hdec c).1 (hdec c).2)
    · exact ((h c).2 Cert.KernelIdeal.main_arg0 (Pipeline.mem_restRefs_of Cert.KernelIdeal.main_arg0 (by decide) (by decide))).trans
        (Cert.KernelIdeal.Gen.W_main_arg0 m (Cert.KernelIdeal.Gen.dats m) c)
    · exact ((h c).2 Cert.KernelIdeal.main_arg1 (Pipeline.mem_restRefs_of Cert.KernelIdeal.main_arg1 (by decide) (by decide))).trans
        (Cert.KernelIdeal.Gen.W_main_arg1 m (Cert.KernelIdeal.Gen.dats m) c)
  · refine (θ_run Cert.ReferenceIdeal.defs _ _).mono (fun r h c => ⟨(h c).1.trans ?_, (h c).2⟩)
      (Cert.ReferenceIdeal.Value.run (F := Ideal) m' ρ')
    rw [(hagree c).1, (hagree c).2]
    exact (Cert.ReferenceIdeal.Read.val_main_v13_eq _ _).trans (Cert.RefSide.ref_eq _ _)

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
